-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 93
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x64, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x1, .f32⟩
  | .hbm, ⟨84, _⟩ => ⟨S1700000x64, .f32⟩
  | .hbm, ⟨85, _⟩ => ⟨S1700000x64, .f32⟩
  | .hbm, ⟨86, _⟩ => ⟨S_, .f32⟩
  | .hbm, ⟨87, _⟩ => ⟨S100000x64, .f32⟩
  | .hbm, ⟨88, _⟩ => ⟨S1700000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S10000x64, .f32⟩
  | .local _ .vmem, ⟨9, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 136
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x64, .f32⟩
  | 6 => ⟨S64, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x128, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x1, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000, .i32⟩
  | 74 => ⟨S1x1600000, .i32⟩
  | 75 => ⟨S1600000, .i32⟩
  | 76 => ⟨S1700000, .i32⟩
  | 77 => ⟨S1x1600000, .i32⟩
  | 78 => ⟨S1600000, .i32⟩
  | 79 => ⟨S1700000, .i32⟩
  | 80 => ⟨S_, .f32⟩
  | 81 => ⟨S1700000, .f32⟩
  | 82 => ⟨S_, .f32⟩
  | 83 => ⟨S100000, .f32⟩
  | 84 => ⟨S1700000x1, .i32⟩
  | 85 => ⟨S100000, .f32⟩
  | 86 => ⟨S_, .f32⟩
  | 87 => ⟨S100000, .f32⟩
  | 88 => ⟨S100000, .i1⟩
  | 89 => ⟨S_, .f32⟩
  | 90 => ⟨S100000, .f32⟩
  | 91 => ⟨S100000, .f32⟩
  | 92 => ⟨S100000, .f32⟩
  | 93 => ⟨S_, .f32⟩
  | 94 => ⟨S_, .f32⟩
  | 95 => ⟨S100000, .f32⟩
  | 96 => ⟨S100000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000, .f32⟩
  | 115 => ⟨S1700000, .f32⟩
  | 116 => ⟨S100000x64, .f32⟩
  | 117 => ⟨S_, .i32⟩
  | 118 => ⟨S1700000, .i32⟩
  | 119 => ⟨S1700000, .i1⟩
  | 120 => ⟨S_, .i32⟩
  | 121 => ⟨S1700000, .i32⟩
  | 122 => ⟨S1700000, .i32⟩
  | 123 => ⟨S1700000, .i32⟩
  | 124 => ⟨S1700000x1, .i32⟩
  | 125 => ⟨S1700000x64, .f32⟩
  | 126 => ⟨S1700000x1, .f32⟩
  | 127 => ⟨S1700000x64, .f32⟩
  | _ => ⟨S100000x128, .f32⟩

abbrev hbmTy0_1 (i : Nat) : BufTy := match i % 128 with
  | 0 => ⟨S1700000x64, .f32⟩
  | 1 => ⟨S_, .f32⟩
  | 2 => ⟨S100000x64, .f32⟩
  | 3 => ⟨S1700000x1, .i32⟩
  | 4 => ⟨S100000x64, .f32⟩
  | 5 => ⟨S1x64, .f32⟩
  | 6 => ⟨S100000x64, .f32⟩
  | 7 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_call2_v0 : Ref sig .tc := ⟨.hbm, 94, rfl⟩
abbrev main_call2_v1 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_17 : Ref sig .tc := ⟨.hbm, 106, rfl⟩
abbrev main_v74 : Ref sig .tc := ⟨.hbm, 107, rfl⟩
abbrev main_v75 : Ref sig .tc := ⟨.hbm, 108, rfl⟩
abbrev main_c_18 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_19 : Ref sig .tc := ⟨.hbm, 117, rfl⟩
abbrev main_v83 : Ref sig .tc := ⟨.hbm, 118, rfl⟩
abbrev main_v84 : Ref sig .tc := ⟨.hbm, 119, rfl⟩
abbrev main_c_20 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_21 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The program's run with its result named.

  @main is eight segments: three stretches of host operations, the first projection's region, two stretches, the second
  projection's region, and the last stretch.  The buffer contents at each boundary are a fold from the launch memory, and
  the last thread state holds every unscoped buffer at the contents after the last stretch.  Read against the final
  state, that gives the result buffer as well as the arguments: the result ends at the fold's value at its buffer.
-/
import proofs.«119863_j71382356460176_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the contents the
    fold through @main's segments gives it, and every argument array ends as launched. -/
theorem run_main : θ_run defs (onTc (τ := τ) (main (F := F))) ⟨m, fun _ => 0, ρ⟩ (fun r => ∀ c : Dev nD,
      r.2.mem ((c.tc : Thread nD τ).loc main_v66) = W8 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v66 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.RunV

end
-- ==== Proof.Spec.lean ====
/-
  Two graph-convolution layers as one function of the argument arrays.

  Every edge list gets the self loops appended: the source ends `srcOf` and the target ends `dstOf` of the 1 600 000 given
  edges followed by the 100 000 loops `i → i`.  The degree of a node counts the edges that end in it; `degInvSqrt` is
  `1 / sqrt (max deg 1)` where the degree is positive and `0` elsewhere, and the weight of an edge, `normOf`, is the
  product of that number at its two ends (an index read as a signed word, a negative one moved up by the node count).
  A layer (`aggregate128`, `aggregate64`) takes the projected features `h`, gathers the source row of every edge, scales
  it by the edge's weight, adds the scaled rows into the rows their edges end in, and adds the bias to every row.
  `gcn` is: project by `W1` (a row-by-column product), aggregate, clamp below at zero, project by `W2`, aggregate.
  The projections are the host's `dot_general` of the whole arrays.
-/
import proofs.«119863_j71382356460176_1_alg».proof.KernelIdeal

noncomputable section

namespace Cert.Gcn

open Idealize.ShloMosaic Cert.KernelIdeal Cert.KernelIdeal.Facts₀ Cert.KernelIdeal.Facts

variable {F : FTy → Type} [FloatOps F] [Cert.KernelIdeal.Facts]

/-- One row of the edge list (`row = ![0, 0]`: the source ends, `![1, 0]`: the target ends) followed by the self
    loops `0, 1, …, 99999`. -/
def edgeEnds (row : Fin 2 → Nat) (h : S2x1600000.Slices row S1x1600000)
    (ei : (⟨S2x1600000, .i32⟩ : BufTy).Contents (Elt F)) : (⟨S1700000, .i32⟩ : BufTy).Contents (Elt F) :=
  concatenate S1700000 0
    [⟨S1600000, shapeCast S1600000 (extractStridedSlice S1x1600000 row ei h) shapeCasts_S1x1600000_S1600000⟩,
     ⟨S100000, iotaInDim S100000 32 0⟩] concatenates_S1600000_S100000_S1700000_d0

/-- The source end of every edge, self loops last. -/
def srcOf (ei : (⟨S2x1600000, .i32⟩ : BufTy).Contents (Elt F)) : (⟨S1700000, .i32⟩ : BufTy).Contents (Elt F) :=
  edgeEnds (F := F) ![0, 0] slices_S2x1600000_S1x1600000_0_0 ei

/-- The target end of every edge, self loops last. -/
def dstOf (ei : (⟨S2x1600000, .i32⟩ : BufTy).Contents (Elt F)) : (⟨S1700000, .i32⟩ : BufTy).Contents (Elt F) :=
  edgeEnds (F := F) ![1, 0] slices_S2x1600000_S1x1600000_1_0 ei

/-- A list of node indices as a column, a negative index (read signed) moved up by the node count. -/
def wrapIdx (v : (⟨S1700000, .i32⟩ : BufTy).Contents (Elt F)) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- A list of node indices as a column, as it is. -/
def colIdx (v : (⟨S1700000, .i32⟩ : BufTy).Contents (Elt F)) : (⟨S1700000x1, .i32⟩ : BufTy).Contents (Elt F) :=
  broadcastInDim S1700000x1 ![0] bcast_S1700000_S1700000x1_0 v

/-- The degree of every node: one added per edge into the row its target names. -/
def degree (dst : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant (F := F) S_ .f32 0x00000000#32))
    (colIdx (F := F) dst)
    (broadcastInDim S1700000 ![] bcast_S_S1700000 (constant (F := F) S_ .f32 0x3F800000#32))

/-- `1 / sqrt (max deg 1)` where the degree is positive, `0` elsewhere. -/
def degInvSqrt (dst : (⟨S1700000, .i32⟩ : BufTy).Contents (Elt F)) : (⟨S100000, .f32⟩ : BufTy).Contents (Elt F) :=
  select
    (cmpf (F := F) .ogt (degree (F := F) dst)
      (broadcastInDim S100000 ![] bcast_S_S100000 (constant (F := F) S_ .f32 0x00000000#32)))
    (Host.rsqrt (maximumf (degree (F := F) dst)
      (broadcastInDim S100000 ![] bcast_S_S100000 (constant (F := F) S_ .f32 0x3F800000#32))))
    (broadcastInDim S100000 ![] bcast_S_S100000 (constant (F := F) S_ .f32 0x00000000#32))

/-- The weight of every edge: the product of `degInvSqrt` at its two ends. -/
def normOf (src dst : (⟨S1700000, .i32⟩ : BufTy).Contents (Elt F)) : (⟨S1700000, .f32⟩ : BufTy).Contents (Elt F) :=
  mulf
    (Host.gather gather_S100000_S1700000x1_S1700000_n_0_n_n_0_1_1 (degInvSqrt (F := F) dst) (wrapIdx (F := F) src))
    (Host.gather gather_S100000_S1700000x1_S1700000_n_0_n_n_0_1_1 (degInvSqrt (F := F) dst) (wrapIdx (F := F) dst))

/-- A layer on 128 features: gather the source rows, scale by the edge weights, add into the target rows, add the bias. -/
def aggregate128 (h : (⟨S100000x128, .f32⟩ : BufTy).Contents (Elt F))
    (src dst : (⟨S1700000, .i32⟩ : BufTy).Contents (Elt F)) (norm : (⟨S1700000, .f32⟩ : BufTy).Contents (Elt F))
    (b : (⟨S128, .f32⟩ : BufTy).Contents (Elt F)) : (⟨S100000x128, .f32⟩ : BufTy).Contents (Elt F) :=
  addf
    (Host.scatterAdd scatter_S100000x128_S1700000x1_S1700000x128_1_0_0_1
      (broadcastInDim S100000x128 ![] bcast_S_S100000x128 (constant (F := F) S_ .f32 0x00000000#32))
      (colIdx (F := F) dst)
      (mulf (Host.gather gather_S100000x128_S1700000x1_S1700000x128_1_0_n_n_0_1_1128 h (wrapIdx (F := F) src))
        (broadcastInDim S1700000x128 ![0, 1] bcast_S1700000x1_S1700000x128_0_1
          (broadcastInDim S1700000x1 ![0] bcast_S1700000_S1700000x1_0 norm))))
    (broadcastInDim S100000x128 ![0, 1] bcast_S1x128_S100000x128_0_1 (broadcastInDim S1x128 ![1] bcast_S128_S1x128_1 b))

/-- Clamp below at zero. -/
def relu128 (z : (⟨S100000x128, .f32⟩ : BufTy).Contents (Elt F)) : (⟨S100000x128, .f32⟩ : BufTy).Contents (Elt F) :=
  maximumf z (broadcastInDim S100000x128 ![] bcast_S_S100000x128 (constant (F := F) S_ .f32 0x00000000#32))

/-- The same layer on 64 features. -/
def aggregate64 (h : (⟨S100000x64, .f32⟩ : BufTy).Contents (Elt F))
    (src dst : (⟨S1700000, .i32⟩ : BufTy).Contents (Elt F)) (norm : (⟨S1700000, .f32⟩ : BufTy).Contents (Elt F))
    (b : (⟨S64, .f32⟩ : BufTy).Contents (Elt F)) : (⟨S100000x64, .f32⟩ : BufTy).Contents (Elt F) :=
  addf
    (Host.scatterAdd scatter_S100000x64_S1700000x1_S1700000x64_1_0_0_1
      (broadcastInDim S100000x64 ![] bcast_S_S100000x64 (constant (F := F) S_ .f32 0x00000000#32))
      (colIdx (F := F) dst)
      (mulf (Host.gather gather_S100000x64_S1700000x1_S1700000x64_1_0_n_n_0_1_164 h (wrapIdx (F := F) src))
        (broadcastInDim S1700000x64 ![0, 1] bcast_S1700000x1_S1700000x64_0_1
          (broadcastInDim S1700000x1 ![0] bcast_S1700000_S1700000x1_0 norm))))
    (broadcastInDim S100000x64 ![0, 1] bcast_S1x64_S100000x64_0_1 (broadcastInDim S1x64 ![1] bcast_S64_S1x64_1 b))

/-- The row-by-column product `[100000, 128] × [128, 128]`. -/
def dotW1 : DotDims S100000x128 S128x128 S100000x128 := ⟨[1], [0], [0], [1], [], [], by decide⟩

/-- The row-by-column product `[100000, 128] × [128, 64]`. -/
def dotW2 : DotDims S100000x128 S128x64 S100000x64 := ⟨[1], [0], [0], [1], [], [], by decide⟩

/-- The whole computation: two layers, the first one's result clamped below at zero. -/
def gcn (x : (⟨S100000x128, .f32⟩ : BufTy).Contents (Elt F)) (ei : (⟨S2x1600000, .i32⟩ : BufTy).Contents (Elt F))
    (W1 : (⟨S128x128, .f32⟩ : BufTy).Contents (Elt F)) (b1 : (⟨S128, .f32⟩ : BufTy).Contents (Elt F))
    (W2 : (⟨S128x64, .f32⟩ : BufTy).Contents (Elt F)) (b2 : (⟨S64, .f32⟩ : BufTy).Contents (Elt F)) :
    (⟨S100000x64, .f32⟩ : BufTy).Contents (Elt F) :=
  aggregate64 (F := F)
    (Host.dotGeneral dotW2 none
      (relu128 (F := F) (aggregate128 (F := F) (Host.dotGeneral dotW1 none x W1)
        (srcOf (F := F) ei) (dstOf (F := F) ei) (normOf (F := F) (srcOf (F := F) ei) (dstOf (F := F) ei)) b1)) W2)
    (srcOf (F := F) ei) (dstOf (F := F) ei) (normOf (F := F) (srcOf (F := F) ei) (dstOf (F := F) ei)) b2

end Cert.Gcn

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.LibHostMatmul.lean ====
/-
  A host `dot_general` of an `[m, k]` by a `[k, n]` matrix (contracting the first operand's columns with the second's
  rows), read at an entry at the ideal values: the sum over `c : Fin k` of `A (a, c) * B (c, b)`, for arbitrary extents.
  A constant broadcast from a scalar reads that constant's value everywhere.
-/
import Idealize.ShloMosaic.Lib.Pipeline.Value
import Idealize.ShloMosaic.Lib.ValueIdx
import Idealize.ShloMosaic.PureOps.Ideal.Laws

noncomputable section

namespace Idealize.ShloMosaic.DenseLayers

open Idealize.ShloMosaic Idealize.ShloMosaic.ValueIdx

/-- A row-by-column host matrix product read at an entry. -/
theorem dotGeneral_rowcol_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A scalar constant broadcast to any shape reads the constant's value at every index. -/
theorem broadcastInDim_scalar_constant_apply {t : Shape} {φ : FTy} (w : BitVec φ.bits)
    (h : (⟨0, ![]⟩ : Shape).BroadcastsInDim t ![]) (j : t.Idx) :
    broadcastInDim t ![] h (constant (F := Ideal) ⟨0, ![]⟩ φ w) j = Ideal.ofBits φ w := rfl

end Idealize.ShloMosaic.DenseLayers

end
-- ==== Proof.Region0.lean ====
/-
  The first projection's region, whatever the buffers hold when it is entered (`V`).

  The grid has ten points; point `t` works on rows `10000 t … 10000 t + 9999` of the left operand and on the whole right
  operand, and writes back those rows of the product.  At the ideal values rounding the operands to bf16 changes nothing,
  so an entry `(p, q)` of what the body stores is the sum over `k` of `x (p, k) * w (k, q)` of the point's blocks, which is
  the entry `(10000 t + p, q)` of the row-by-column product of the whole arrays.  The ten row blocks cover the array, so
  when the region is left the output array is that product.
-/
import proofs.«119863_j71382356460176_1_alg».proof.Proof.Gen.KernelIdeal.Frame
import proofs.«119863_j71382356460176_1_alg».proof.Proof.Spec
import proofs.«119863_j71382356460176_1_alg».proof.Proof.LibDenseLayers
import proofs.«119863_j71382356460176_1_alg».proof.Proof.LibHostMatmul
import Idealize.ShloMosaic.Lib.Pipeline.Value
import Idealize.ShloMosaic.Lib.ValueIdx

set_option maxRecDepth 16384

noncomputable section

namespace Cert.KernelIdeal.Region0

open Cert.KernelIdeal Cert.KernelIdeal.Gen Cert.KernelIdeal.Facts₀ Cert.KernelIdeal.Facts Cert.Gcn
open Idealize.ShloMosaic Idealize.ShloMosaic.TcCoe Idealize.ShloMosaic.ValueIdx Idealize.ShloMosaic.DenseLayers
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- An entry of what the body stores: the row of the left block times the column of the right block. -/
theorem pay_apply (x0 : Vec Ideal S10000x128 .f32) (x1 : Vec Ideal S128x128 .f32) (p : Fin 10000) (q : Fin 128) :
    k0_pay1 x0 x1 (ix2 p q) = ∑ k : Fin 128, x0 (ix2 p k) * x1 (ix2 k q) := by
  unfold k0_pay1
  exact matmul_rowcol_zero_apply (m := 10000) (k := 128) (n := 128) Facts₀.dot_S10000x128_S128x128_S10000x128_1_0_0_1_n_n_wf none x0 x1 p q

/-- An entry of the stored block against an entry of the whole product, when the block's row is the array's row and
    the right block is the whole right operand. -/
theorem block_entry (x0 : Vec Ideal S10000x128 .f32) (x1 : Vec Ideal S128x128 .f32)
    (A : FVec Ideal S100000x128 .f32) (B : FVec Ideal S128x128 .f32) (j : S10000x128.Idx) (i : S100000x128.Idx)
    (hq : j 1 = i 1)
    (hx0 : ∀ k : Fin 128, x0 (ix2 (j 0) k) = A (ix2 (i 0) k)) (hx1 : ∀ k : Fin 128, x1 (ix2 k (j 1)) = B (ix2 k (j 1))) :
    k0_pay1 x0 x1 j = Host.dotGeneral (F := Ideal) (φ₁ := .f32) (φ₂ := .f32) dotW1 none A B i := by
  obtain ⟨p, q, rfl⟩ : ∃ (p : Fin 10000) (q : Fin 128), j = ix2 p q := ⟨j 0, j 1, eq_ix2 j⟩
  obtain ⟨a, b, rfl⟩ : ∃ (a : Fin 100000) (b : Fin 128), i = ix2 a b := ⟨i 0, i 1, eq_ix2 i⟩
  have hqb : q = b := hq
  subst hqb
  refine (pay_apply x0 x1 p q).trans ?_
  refine Eq.trans ?_ (dotGeneral_rowcol_apply (m := 100000) (k := 128) (n := 128) (by decide) none A B a q).symm
  exact Finset.sum_congr rfl fun k _ => by rw [hx0 k, hx1 k]

/-- The printed index maps over the grid: the left and the output blocks are row block `t`, the right block the whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the arrays the region finds. -/
theorem flushed_eq (c : Dev nD) (t : Fin cfg0.N) :
    (dat0 V c).flushed 2 t = ((cfg0.win 2).blk t).view.read (Elt Ideal)
      (Host.dotGeneral (F := Ideal) (φ₁ := .f32) (φ₂ := .f32) dotW1 none (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts t
  funext j
  show k0_pay1 (iblk0 V c 0 t) (iblk0 V c 1 t) j
    = Host.dotGeneral (F := Ideal) (φ₁ := .f32) (φ₂ := .f32) dotW1 none (V c main_arg0) (V c main_arg3) (((cfg0.win 2).blk t).view.emb j)
  refine block_entry _ _ _ _ j _ ?_ (fun k => ?_) (fun k => ?_)
  · apply Fin.ext
    show (j 1).val = win0_2.index t (1 : Fin 2) * 128 + 1 * (j 1).val
    omega
  · show V c main_arg0 (((cfg0.win 0).blk t).view.emb (ix2 (j 0) k)) = V c main_arg0 (ix2 ((((cfg0.win 2).blk t).view.emb j) 0) k)
    refine congrArg (V c main_arg0) ?_
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg3 (((cfg0.win 1).blk t).view.emb (ix2 k (j 1))) = V c main_arg3 (ix2 k (j 1))
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 128 + 1 * (j 1).val = (j 1).val; omega

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v32).slice (win0_2.rect t)).set ↔ _
  rw [View.set_slice_whole, Rect.mem_set_unit]
  exact Iff.rfl

/-- Row `r` of the output lies in the block of point `r / 10000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  have ht : (i 0).val / 10000 < cfg0.N := by rw [hN]; omega
  obtain ⟨e0, e1, e2, e3, e4, e5⟩ := idx_facts ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, ht⟩ (1 : Fin 2) * 128 ≤ (i 1).val
      ∧ (i 1).val < win0_2.index ⟨(i 0).val / 10000, ht⟩ (1 : Fin 2) * 128 + 128
    omega

/-- When the region is left its output array is the row-by-column product of the arrays it found. -/
theorem arr_eq (c : Dev nD) :
    (dat0 V c).arrAt 2 cfg0.N = Host.dotGeneral (F := Ideal) (φ₁ := .f32) (φ₂ := .f32) dotW1 none (V c main_arg0) (V c main_arg3) :=
  (dat0 V c).arrAt_eq_of_cover 2 _ (fun t _ => flushed_eq V c t) cover

end Cert.KernelIdeal.Region0

end
-- ==== Proof.Region1.lean ====
/-
  The second projection's region, whatever the buffers hold when it is entered (`V`).

  The grid has ten points; point `t` works on rows `10000 t … 10000 t + 9999` of the left operand and on the whole right
  operand, and writes back those rows of the product.  At the ideal values rounding the operands to bf16 changes nothing (nor does the cast of the left block to its own shape),
  so an entry `(p, q)` of what the body stores is the sum over `k` of `x (p, k) * w (k, q)` of the point's blocks, which is
  the entry `(10000 t + p, q)` of the row-by-column product of the whole arrays.  The ten row blocks cover the array, so
  when the region is left the output array is that product.
-/
import proofs.«119863_j71382356460176_1_alg».proof.Proof.Gen.KernelIdeal.Frame
import proofs.«119863_j71382356460176_1_alg».proof.Proof.Spec
import proofs.«119863_j71382356460176_1_alg».proof.Proof.LibDenseLayers
import proofs.«119863_j71382356460176_1_alg».proof.Proof.LibHostMatmul
import Idealize.ShloMosaic.Lib.Pipeline.Value
import Idealize.ShloMosaic.Lib.ValueIdx

set_option maxRecDepth 16384

noncomputable section

namespace Cert.KernelIdeal.Region1

open Cert.KernelIdeal Cert.KernelIdeal.Gen Cert.KernelIdeal.Facts₀ Cert.KernelIdeal.Facts Cert.Gcn
open Idealize.ShloMosaic Idealize.ShloMosaic.TcCoe Idealize.ShloMosaic.ValueIdx Idealize.ShloMosaic.DenseLayers
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- An entry of what the body stores: the row of the left block times the column of the right block. -/
theorem pay_apply (x0 : Vec Ideal S10000x128 .f32) (x1 : Vec Ideal S128x64 .f32) (p : Fin 10000) (q : Fin 64) :
    k1_pay1 x0 x1 (ix2 p q) = ∑ k : Fin 128, x0 (ix2 p k) * x1 (ix2 k q) := by
  have hc : shapeCast S10000x128 x0 Facts₀.shapeCasts_S10000x128_S10000x128 = x0 := shapeCast_self x0 _
  have h := matmul_rowcol_zero_apply (m := 10000) (k := 128) (n := 64) (φ₁ := .bf16) (φ₂ := .bf16)
    Facts₀.dot_S10000x128_S128x64_S10000x64_1_0_0_1_n_n_wf none
    (truncf .bf16 x0 Facts₀.bitsLt_bf16_f32) (truncf .bf16 x1 Facts₀.bitsLt_bf16_f32) p q
  unfold k1_pay1
  refine Eq.trans ?_ h
  exact congrArg (fun z : Vec Ideal S10000x128 .f32 => matmul dot_S10000x128_S128x64_S10000x64_1_0_0_1_n_n none
    (truncf .bf16 z Facts₀.bitsLt_bf16_f32) (truncf .bf16 x1 Facts₀.bitsLt_bf16_f32)
    (constant (F := Ideal) S10000x64 .f32 0x00000000#32) (ix2 p q)) hc

/-- An entry of the stored block against an entry of the whole product, when the block's row is the array's row and
    the right block is the whole right operand. -/
theorem block_entry (x0 : Vec Ideal S10000x128 .f32) (x1 : Vec Ideal S128x64 .f32)
    (A : FVec Ideal S100000x128 .f32) (B : FVec Ideal S128x64 .f32) (j : S10000x64.Idx) (i : S100000x64.Idx)
    (hq : j 1 = i 1)
    (hx0 : ∀ k : Fin 128, x0 (ix2 (j 0) k) = A (ix2 (i 0) k)) (hx1 : ∀ k : Fin 128, x1 (ix2 k (j 1)) = B (ix2 k (j 1))) :
    k1_pay1 x0 x1 j = Host.dotGeneral (F := Ideal) (φ₁ := .f32) (φ₂ := .f32) dotW2 none A B i := by
  obtain ⟨p, q, rfl⟩ : ∃ (p : Fin 10000) (q : Fin 64), j = ix2 p q := ⟨j 0, j 1, eq_ix2 j⟩
  obtain ⟨a, b, rfl⟩ : ∃ (a : Fin 100000) (b : Fin 64), i = ix2 a b := ⟨i 0, i 1, eq_ix2 i⟩
  have hqb : q = b := hq
  subst hqb
  refine (pay_apply x0 x1 p q).trans ?_
  refine Eq.trans ?_ (dotGeneral_rowcol_apply (m := 100000) (k := 128) (n := 64) (by decide) none A B a q).symm
  exact Finset.sum_congr rfl fun k _ => by rw [hx0 k, hx1 k]

/-- The printed index maps over the grid: the left and the output blocks are row block `t`, the right block the whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the arrays the region finds. -/
theorem flushed_eq (c : Dev nD) (t : Fin cfg1.N) :
    (dat1 V c).flushed 2 t = ((cfg1.win 2).blk t).view.read (Elt Ideal)
      (Host.dotGeneral (F := Ideal) (φ₁ := .f32) (φ₂ := .f32) dotW2 none (V c main_v49) (V c main_arg5)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x64) hz]
  obtain ⟨e0, e1, e2, e3, e4, e5⟩ := idx_facts t
  funext j
  show k1_pay1 (iblk1 V c 0 t) (iblk1 V c 1 t) j
    = Host.dotGeneral (F := Ideal) (φ₁ := .f32) (φ₂ := .f32) dotW2 none (V c main_v49) (V c main_arg5) (((cfg1.win 2).blk t).view.emb j)
  refine block_entry _ _ _ _ j _ ?_ (fun k => ?_) (fun k => ?_)
  · apply Fin.ext
    show (j 1).val = win1_2.index t (1 : Fin 2) * 64 + 1 * (j 1).val
    omega
  · show V c main_v49 (((cfg1.win 0).blk t).view.emb (ix2 (j 0) k)) = V c main_v49 (ix2 ((((cfg1.win 2).blk t).view.emb j) 0) k)
    refine congrArg (V c main_v49) ?_
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * k.val = k.val; omega
  · show V c main_arg5 (((cfg1.win 1).blk t).view.emb (ix2 k (j 1))) = V c main_arg5 (ix2 k (j 1))
    refine congrArg (V c main_arg5) ?_
    funext a; apply Fin.ext
    match a with
    | ⟨0, _⟩ => show win1_1.index t (0 : Fin 2) * 128 + 1 * k.val = k.val; omega
    | ⟨1, _⟩ => show win1_1.index t (1 : Fin 2) * 64 + 1 * (j 1).val = (j 1).val; omega

/-- An index of the output array is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v50).slice (win1_2.rect t)).set ↔ _
  rw [View.set_slice_whole, Rect.mem_set_unit]
  exact Iff.rfl

/-- Row `r` of the output lies in the block of point `r / 10000`. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  have ht : (i 0).val / 10000 < cfg1.N := by rw [hN]; omega
  obtain ⟨e0, e1, e2, e3, e4, e5⟩ := idx_facts ⟨(i 0).val / 10000, ht⟩
  refine ⟨⟨(i 0).val / 10000, ht⟩, flush1_2 _, ?_⟩
  rw [mem_blk]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win1_2.index ⟨(i 0).val / 10000, ht⟩ (1 : Fin 2) * 64 ≤ (i 1).val
      ∧ (i 1).val < win1_2.index ⟨(i 0).val / 10000, ht⟩ (1 : Fin 2) * 64 + 64
    omega

/-- When the region is left its output array is the row-by-column product of the arrays it found. -/
theorem arr_eq (c : Dev nD) :
    (dat1 V c).arrAt 2 cfg1.N = Host.dotGeneral (F := Ideal) (φ₁ := .f32) (φ₂ := .f32) dotW2 none (V c main_v49) (V c main_arg5) :=
  (dat1 V c).arrAt_eq_of_cover 2 _ (fun t _ => flushed_eq V c t) cover

end Cert.KernelIdeal.Region1

end
-- ==== Proof.KernelValue.lean ====
/-
  The buffer contents at the boundaries of @main's segments, read as the layers of the computation.

  Before the first region the host computes, from the edge list alone, the edge ends with the self loops appended and the
  edge weights; between the regions it aggregates the first projection, adds the bias and clamps below at zero; after the
  second region it aggregates the second projection and adds the bias.  Each stretch is read here from ANY contents it may
  start from, as the named function of what it reads; a region leaves its output array at the row-by-column product of
  the arrays it found and every other buffer as it was.  Composed from the launch memory, the result buffer holds `gcn`
  of the argument arrays.
-/
import proofs.«119863_j71382356460176_1_alg».proof.Proof.Gen.KernelIdeal.Frame
import proofs.«119863_j71382356460176_1_alg».proof.Proof.Spec
import proofs.«119863_j71382356460176_1_alg».proof.Proof.Region0
import proofs.«119863_j71382356460176_1_alg».proof.Proof.Region1
import Idealize.ShloMosaic.Lib.StableHlo.Run

set_option maxRecDepth 16384

noncomputable section

namespace Cert.KernelIdeal.Stages

open Cert.KernelIdeal Cert.KernelIdeal.Gen Cert.KernelIdeal.Facts₀ Cert.KernelIdeal.Facts Cert.Gcn
open Idealize.ShloMosaic Idealize.ShloMosaic.TcCoe Idealize.ShloMosaic.StableHlo
open Idealize.SL Idealize.SL.Sem

section Generic

variable {F : FTy → Type} [FloatOps F] (Wb : Valuation τ sig (Elt F))

/-! ## Before the first region: the edge ends and the edge weights, from the edge list -/

theorem pre_src : StableHlo.after hostOps0_2 (StableHlo.after hostOps0_1 (StableHlo.after hostOps0 Wb)) (Proc.devRef .tc main_v3) = srcOf (F := F) (Wb (Proc.devRef .tc main_arg1)) := by
  after_results_simp <;> rfl

theorem pre_dst : StableHlo.after hostOps0_2 (StableHlo.after hostOps0_1 (StableHlo.after hostOps0 Wb)) (Proc.devRef .tc main_v6) = dstOf (F := F) (Wb (Proc.devRef .tc main_arg1)) := by
  after_results_simp <;> rfl

set_option maxHeartbeats 4000000 in
theorem pre_norm : StableHlo.after hostOps0_2 (StableHlo.after hostOps0_1 (StableHlo.after hostOps0 Wb)) (Proc.devRef .tc main_v31) = normOf (F := F) (srcOf (F := F) (Wb (Proc.devRef .tc main_arg1))) (dstOf (F := F) (Wb (Proc.devRef .tc main_arg1))) := by
  after_results_simp <;> rfl

theorem pre_main_arg0 : StableHlo.after hostOps0_2 (StableHlo.after hostOps0_1 (StableHlo.after hostOps0 Wb)) (Proc.devRef .tc main_arg0) = Wb (Proc.devRef .tc main_arg0) := by
  after_results_simp <;> rfl

theorem pre_main_arg3 : StableHlo.after hostOps0_2 (StableHlo.after hostOps0_1 (StableHlo.after hostOps0 Wb)) (Proc.devRef .tc main_arg3) = Wb (Proc.devRef .tc main_arg3) := by
  after_results_simp <;> rfl

theorem pre_main_arg4 : StableHlo.after hostOps0_2 (StableHlo.after hostOps0_1 (StableHlo.after hostOps0 Wb)) (Proc.devRef .tc main_arg4) = Wb (Proc.devRef .tc main_arg4) := by
  after_results_simp <;> rfl

theorem pre_main_arg5 : StableHlo.after hostOps0_2 (StableHlo.after hostOps0_1 (StableHlo.after hostOps0 Wb)) (Proc.devRef .tc main_arg5) = Wb (Proc.devRef .tc main_arg5) := by
  after_results_simp <;> rfl

theorem pre_main_arg6 : StableHlo.after hostOps0_2 (StableHlo.after hostOps0_1 (StableHlo.after hostOps0 Wb)) (Proc.devRef .tc main_arg6) = Wb (Proc.devRef .tc main_arg6) := by
  after_results_simp <;> rfl

/-! ## Between the regions: the first layer, clamped below at zero -/

set_option maxHeartbeats 4000000 in
theorem mid_hidden : StableHlo.after hostOps1_1 (StableHlo.after hostOps1 Wb) (Proc.devRef .tc main_v49) = relu128 (F := F) (aggregate128 (F := F) (Wb (Proc.devRef .tc main_v32)) (Wb (Proc.devRef .tc main_v3)) (Wb (Proc.devRef .tc main_v6)) (Wb (Proc.devRef .tc main_v31)) (Wb (Proc.devRef .tc main_arg4))) := by
  after_results_simp <;> rfl

theorem mid_main_v3 : StableHlo.after hostOps1_1 (StableHlo.after hostOps1 Wb) (Proc.devRef .tc main_v3) = Wb (Proc.devRef .tc main_v3) := by
  after_results_simp <;> rfl

theorem mid_main_v6 : StableHlo.after hostOps1_1 (StableHlo.after hostOps1 Wb) (Proc.devRef .tc main_v6) = Wb (Proc.devRef .tc main_v6) := by
  after_results_simp <;> rfl

theorem mid_main_v31 : StableHlo.after hostOps1_1 (StableHlo.after hostOps1 Wb) (Proc.devRef .tc main_v31) = Wb (Proc.devRef .tc main_v31) := by
  after_results_simp <;> rfl

theorem mid_main_arg5 : StableHlo.after hostOps1_1 (StableHlo.after hostOps1 Wb) (Proc.devRef .tc main_arg5) = Wb (Proc.devRef .tc main_arg5) := by
  after_results_simp <;> rfl

theorem mid_main_arg6 : StableHlo.after hostOps1_1 (StableHlo.after hostOps1 Wb) (Proc.devRef .tc main_arg6) = Wb (Proc.devRef .tc main_arg6) := by
  after_results_simp <;> rfl

/-! ## After the second region: the second layer -/

set_option maxHeartbeats 4000000 in
theorem post_out : StableHlo.after hostOps2 Wb (Proc.devRef .tc main_v66) = aggregate64 (F := F) (Wb (Proc.devRef .tc main_v50)) (Wb (Proc.devRef .tc main_v3)) (Wb (Proc.devRef .tc main_v6)) (Wb (Proc.devRef .tc main_v31)) (Wb (Proc.devRef .tc main_arg6)) := by
  after_results_simp <;> rfl

end Generic

/-! ## Composed from the launch memory -/

section Run

variable (m : (ℓ : Loc nD τ sig) → Buf (Elt Ideal) ℓ) (ρ : Dev nD → PrngReg) (c : Dev nD)

/-- The edge list as launched. -/
abbrev ei : (⟨S2x1600000, .i32⟩ : BufTy).Contents (Elt Ideal) := m ((c : Thread nD τ).loc main_arg1)

theorem w3_src : W3 m ρ c (Proc.devRef .tc main_v3) = srcOf (F := Ideal) (ei m c) := pre_src (W0 m ρ c)
theorem w3_dst : W3 m ρ c (Proc.devRef .tc main_v6) = dstOf (F := Ideal) (ei m c) := pre_dst (W0 m ρ c)
theorem w3_norm : W3 m ρ c (Proc.devRef .tc main_v31)
    = normOf (F := Ideal) (srcOf (F := Ideal) (ei m c)) (dstOf (F := Ideal) (ei m c)) := pre_norm (W0 m ρ c)
theorem w3_arg0 : W3 m ρ c (Proc.devRef .tc main_arg0) = m ((c : Thread nD τ).loc main_arg0) := pre_main_arg0 (W0 m ρ c)
theorem w3_arg3 : W3 m ρ c (Proc.devRef .tc main_arg3) = m ((c : Thread nD τ).loc main_arg3) := pre_main_arg3 (W0 m ρ c)
theorem w3_arg4 : W3 m ρ c (Proc.devRef .tc main_arg4) = m ((c : Thread nD τ).loc main_arg4) := pre_main_arg4 (W0 m ρ c)
theorem w3_arg5 : W3 m ρ c (Proc.devRef .tc main_arg5) = m ((c : Thread nD τ).loc main_arg5) := pre_main_arg5 (W0 m ρ c)
theorem w3_arg6 : W3 m ρ c (Proc.devRef .tc main_arg6) = m ((c : Thread nD τ).loc main_arg6) := pre_main_arg6 (W0 m ρ c)

/-- The first projection, as the first region leaves it. -/
theorem w4_proj : W4 m ρ c (Proc.devRef .tc main_v32)
    = Host.dotGeneral (F := Ideal) (φ₁ := .f32) (φ₂ := .f32) dotW1 none (m ((c : Thread nD τ).loc main_arg0)) (m ((c : Thread nD τ).loc main_arg3)) := by
  refine (W4_arr m ρ c 2).trans ((Region0.arr_eq (V3 m ρ) c).trans ?_)
  show Host.dotGeneral (F := Ideal) (φ₁ := .f32) (φ₂ := .f32) dotW1 none (W3 m ρ c (Proc.devRef .tc main_arg0)) (W3 m ρ c (Proc.devRef .tc main_arg3)) = _
  rw [w3_arg0, w3_arg3]

theorem w4_src : W4 m ρ c (Proc.devRef .tc main_v3) = srcOf (F := Ideal) (ei m c) :=
  (W4_of_ne m ρ c main_v3 (by decide)).trans (w3_src m ρ c)
theorem w4_dst : W4 m ρ c (Proc.devRef .tc main_v6) = dstOf (F := Ideal) (ei m c) :=
  (W4_of_ne m ρ c main_v6 (by decide)).trans (w3_dst m ρ c)
theorem w4_norm : W4 m ρ c (Proc.devRef .tc main_v31)
    = normOf (F := Ideal) (srcOf (F := Ideal) (ei m c)) (dstOf (F := Ideal) (ei m c)) :=
  (W4_of_ne m ρ c main_v31 (by decide)).trans (w3_norm m ρ c)
theorem w4_arg4 : W4 m ρ c (Proc.devRef .tc main_arg4) = m ((c : Thread nD τ).loc main_arg4) :=
  (W4_of_ne m ρ c main_arg4 (by decide)).trans (w3_arg4 m ρ c)
theorem w4_arg5 : W4 m ρ c (Proc.devRef .tc main_arg5) = m ((c : Thread nD τ).loc main_arg5) :=
  (W4_of_ne m ρ c main_arg5 (by decide)).trans (w3_arg5 m ρ c)
theorem w4_arg6 : W4 m ρ c (Proc.devRef .tc main_arg6) = m ((c : Thread nD τ).loc main_arg6) :=
  (W4_of_ne m ρ c main_arg6 (by decide)).trans (w3_arg6 m ρ c)

/-- The hidden features: the first layer of the first projection, clamped below at zero. -/
def hidden : (⟨S100000x128, .f32⟩ : BufTy).Contents (Elt Ideal) :=
  relu128 (F := Ideal) (aggregate128 (F := Ideal)
    (Host.dotGeneral (F := Ideal) (φ₁ := .f32) (φ₂ := .f32) dotW1 none (m ((c : Thread nD τ).loc main_arg0)) (m ((c : Thread nD τ).loc main_arg3)))
    (srcOf (F := Ideal) (ei m c)) (dstOf (F := Ideal) (ei m c))
    (normOf (F := Ideal) (srcOf (F := Ideal) (ei m c)) (dstOf (F := Ideal) (ei m c))) (m ((c : Thread nD τ).loc main_arg4)))

theorem w6_hidden : W6 m ρ c (Proc.devRef .tc main_v49) = hidden m c := by
  refine (mid_hidden (W4 m ρ c)).trans ?_
  rw [w4_proj, w4_src, w4_dst, w4_norm, w4_arg4]
  rfl

theorem w6_src : W6 m ρ c (Proc.devRef .tc main_v3) = srcOf (F := Ideal) (ei m c) :=
  (mid_main_v3 (W4 m ρ c)).trans (w4_src m ρ c)
theorem w6_dst : W6 m ρ c (Proc.devRef .tc main_v6) = dstOf (F := Ideal) (ei m c) :=
  (mid_main_v6 (W4 m ρ c)).trans (w4_dst m ρ c)
theorem w6_norm : W6 m ρ c (Proc.devRef .tc main_v31)
    = normOf (F := Ideal) (srcOf (F := Ideal) (ei m c)) (dstOf (F := Ideal) (ei m c)) :=
  (mid_main_v31 (W4 m ρ c)).trans (w4_norm m ρ c)
theorem w6_arg5 : W6 m ρ c (Proc.devRef .tc main_arg5) = m ((c : Thread nD τ).loc main_arg5) :=
  (mid_main_arg5 (W4 m ρ c)).trans (w4_arg5 m ρ c)
theorem w6_arg6 : W6 m ρ c (Proc.devRef .tc main_arg6) = m ((c : Thread nD τ).loc main_arg6) :=
  (mid_main_arg6 (W4 m ρ c)).trans (w4_arg6 m ρ c)

/-- The second projection, as the second region leaves it. -/
theorem w7_proj : W7 m ρ c (Proc.devRef .tc main_v50)
    = Host.dotGeneral (F := Ideal) (φ₁ := .f32) (φ₂ := .f32) dotW2 none (hidden m c) (m ((c : Thread nD τ).loc main_arg5)) := by
  refine (W7_arr m ρ c 2).trans ((Region1.arr_eq (V6 m ρ) c).trans ?_)
  show Host.dotGeneral (F := Ideal) (φ₁ := .f32) (φ₂ := .f32) dotW2 none (W6 m ρ c (Proc.devRef .tc main_v49)) (W6 m ρ c (Proc.devRef .tc main_arg5)) = _
  rw [w6_hidden, w6_arg5]

theorem w7_src : W7 m ρ c (Proc.devRef .tc main_v3) = srcOf (F := Ideal) (ei m c) :=
  (W7_of_ne m ρ c main_v3 (by decide)).trans (w6_src m ρ c)
theorem w7_dst : W7 m ρ c (Proc.devRef .tc main_v6) = dstOf (F := Ideal) (ei m c) :=
  (W7_of_ne m ρ c main_v6 (by decide)).trans (w6_dst m ρ c)
theorem w7_norm : W7 m ρ c (Proc.devRef .tc main_v31)
    = normOf (F := Ideal) (srcOf (F := Ideal) (ei m c)) (dstOf (F := Ideal) (ei m c)) :=
  (W7_of_ne m ρ c main_v31 (by decide)).trans (w6_norm m ρ c)
theorem w7_arg6 : W7 m ρ c (Proc.devRef .tc main_arg6) = m ((c : Thread nD τ).loc main_arg6) :=
  (W7_of_ne m ρ c main_arg6 (by decide)).trans (w6_arg6 m ρ c)

/-- THE RESULT BUFFER after @main: `gcn` of the argument arrays as launched. -/
theorem result_eq : W8 m ρ c (Proc.devRef .tc main_v66)
    = gcn (F := Ideal) (m ((c : Thread nD τ).loc main_arg0)) (m ((c : Thread nD τ).loc main_arg1))
        (m ((c : Thread nD τ).loc main_arg3)) (m ((c : Thread nD τ).loc main_arg4))
        (m ((c : Thread nD τ).loc main_arg5)) (m ((c : Thread nD τ).loc main_arg6)) := by
  refine (post_out (W7 m ρ c)).trans ?_
  rw [w7_proj, w7_src, w7_dst, w7_norm, w7_arg6]
  rfl

end Run

end Cert.KernelIdeal.Stages

end
-- ==== Proof.RefValue.lean ====
/-
  The reference computes `gcn`.

  The reference's run ends with its result at the composed term of its 129 host operations.  That term is the two layers
  of `gcn` spelt out, with the edge ends, the degrees and the edge weights written again wherever they are used (the
  reference computes them once per layer, from the same edge list, so both copies are the same function of it) and the
  two projections as the host's `dot_general`: unfolding the names on both sides leaves the same term.
-/
import proofs.«119863_j71382356460176_1_alg».proof.Proof.RefRun
import proofs.«119863_j71382356460176_1_alg».proof.Proof.Spec
import proofs.«119863_j71382356460176_1_alg».proof.Proof.Gen.KernelIdeal
import Idealize.ShloMosaic.PureOps.Ideal

set_option maxRecDepth 16384

noncomputable section

namespace Cert.ReferenceIdeal.RefValue

open Idealize.ShloMosaic Idealize.ShloMosaic.TcCoe Idealize.SL.Sem
open Cert.ReferenceIdeal

set_option maxHeartbeats 4000000 in
/-- The reference's result term is `gcn` of the argument arrays. -/
theorem res_eq (m : (ℓ : Loc nD τ sig) → Buf (Elt Ideal) ℓ) (c : Dev nD) :
    Cert.ReferenceIdeal.RunP.res_main_v98 (F := Ideal) m c
      = Cert.Gcn.gcn (F := Ideal) (m ((c.tc : Thread nD τ).loc main_arg0)) (m ((c.tc : Thread nD τ).loc main_arg1))
          (m ((c.tc : Thread nD τ).loc main_arg3)) (m ((c.tc : Thread nD τ).loc main_arg4))
          (m ((c.tc : Thread nD τ).loc main_arg5)) (m ((c.tc : Thread nD τ).loc main_arg6)) := by
  unfold Cert.ReferenceIdeal.RunP.res_main_v98
  rfl

end Cert.ReferenceIdeal.RefValue

end
-- ==== Proof.lean ====
/-
  The kernel program and the reference compute the same two graph-convolution layers.

  Both programs build, from the edge list, the edge ends with the self loops appended, the degrees and the edge weights,
  and run two layers: project the features, gather the source row of every edge, scale it by the edge's weight, add it
  into the row of the edge's target, add the bias; the first layer's result is clamped below at zero.  The kernel
  program computes the two projections on the TensorCore, ten row blocks of 10000 rows each, the operands rounded to
  bf16 on the way in; the reference computes them with the host's `dot_general`.  At the ideal values a rounding is the
  identity and both products are, entry by entry, the sum over `k` of `x (r, k) * w (k, c)`, so each region leaves the
  reference's product in its output array (Region0, Region1), the kernel program's result is `gcn` of its arguments
  (KernelValue over the run of KernelRun), and so is the reference's (RefValue over the run of RefRun).  No law that
  needs finite numbers is used: the precondition is never opened.  The ideal pass rewrote nothing, so `preserves` is
  trivial.
-/
import proofs.«119863_j71382356460176_1_alg».proof.Defs
import proofs.«119863_j71382356460176_1_alg».proof.Proof.Gen.Kernel
import proofs.«119863_j71382356460176_1_alg».proof.Proof.Gen.Kernel.Skeleton
import proofs.«119863_j71382356460176_1_alg».proof.Proof.Gen.Kernel.Launch
import proofs.«119863_j71382356460176_1_alg».proof.Proof.Gen.Kernel.Points
import proofs.«119863_j71382356460176_1_alg».proof.Proof.Gen.Kernel.Frame
import proofs.«119863_j71382356460176_1_alg».proof.Proof.Gen.KernelIdeal
import proofs.«119863_j71382356460176_1_alg».proof.Proof.Gen.KernelIdeal.Skeleton
import proofs.«119863_j71382356460176_1_alg».proof.Proof.Gen.KernelIdeal.Launch
import proofs.«119863_j71382356460176_1_alg».proof.Proof.Gen.KernelIdeal.Points
import proofs.«119863_j71382356460176_1_alg».proof.Proof.Gen.KernelIdeal.Frame
import proofs.«119863_j71382356460176_1_alg».proof.Proof.Gen.ReferenceIdeal
import proofs.«119863_j71382356460176_1_alg».proof.Proof.Gen.Pre_finite_inputs
import proofs.«119863_j71382356460176_1_alg».proof.Proof.KernelRun
import proofs.«119863_j71382356460176_1_alg».proof.Proof.KernelValue
import proofs.«119863_j71382356460176_1_alg».proof.Proof.RefRun
import proofs.«119863_j71382356460176_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both programs end with `gcn` of the argument arrays in their result buffer, and the arguments agree. -/
theorem algebraic : Cert.algebraic_KernelIdeal_ReferenceIdeal := by
  intro m ρ m' ρ' _ hagree
  refine ⟨fun c => Cert.Gcn.gcn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Stages.result_eq m ρ c), (h c).2⟩)
      (Cert.KernelIdeal.RunV.run_main m ρ)
  · refine (θ_run Cert.ReferenceIdeal.defs _ _).mono (fun _ h c => ⟨(h c).1.trans ?_, (h c).2⟩)
      (Cert.ReferenceIdeal.RunP.run (F := Ideal) m' ρ')
    rw [Cert.ReferenceIdeal.RefValue.res_eq, (hagree c).1, (hagree c).2.1, (hagree c).2.2.2.1, (hagree c).2.2.2.2.1,
      (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
